-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x64x64 : Shape := ⟨4, ![8, 32, 64, 64]⟩
abbrev S36x64x64 : Shape := ⟨3, ![36, 64, 64]⟩
abbrev S_ : Shape := ⟨0, ![]⟩

class Facts : Prop where
  bcast_S_S8x32x64x64 : S_.BroadcastsInDim S8x32x64x64 (![] : Fin 0 → Fin S8x32x64x64.rank)
  reducesTo_S8x32x64x64_S_d0_1_2_3 : S8x32x64x64.ReducesTo [0, 1, 2, 3] S_
  h_S_ : 0 < S_.numel
  bcast_S_S36x64x64 : S_.BroadcastsInDim S36x64x64 (![] : Fin 0 → Fin S36x64x64.rank)
  reducesTo_S36x64x64_S_d0_1_2 : S36x64x64.ReducesTo [0, 1, 2] S_

variable [Facts]

def fn {F : FTy → Type} [FloatOps F] (main_arg0 : FVec F S8x32x64x64 .f32) (main_arg1 : FVec F S36x64x64 .f32) : IVec S_ 1 :=
  let main_v0 : FVec F S8x32x64x64 .f32 := Host.absf main_arg0
  let main_cst : FVec F S_ .f32 := constant S_ .f32 0x7F800000#32
  let main_v1 : FVec F S8x32x64x64 .f32 := broadcastInDim S8x32x64x64 ![] bcast_S_S8x32x64x64 main_cst
  let main_v2 : IVec S8x32x64x64 1 := cmpf .olt main_v0 main_v1
  let main_c : IVec S_ 1 := constantI S_ 1 1#1
  let main_v3 : IVec S_ 1 := (fun x v => Host.reduce IntOp.andi x v reducesTo_S8x32x64x64_S_d0_1_2_3 h_S_) main_v2 main_c
  let main_v4 : FVec F S36x64x64 .f32 := Host.absf main_arg1
  let main_cst_0 : FVec F S_ .f32 := constant S_ .f32 0x7F800000#32
  let main_v5 : FVec F S36x64x64 .f32 := broadcastInDim S36x64x64 ![] bcast_S_S36x64x64 main_cst_0
  let main_v6 : IVec S36x64x64 1 := cmpf .olt main_v4 main_v5
  let main_c_1 : IVec S_ 1 := constantI S_ 1 1#1
  let main_v7 : IVec S_ 1 := (fun x v => Host.reduce IntOp.andi x v reducesTo_S36x64x64_S_d0_1_2 h_S_) main_v6 main_c_1
  let main_v8 : IVec S_ 1 := andi main_v3 main_v7
  main_v8
-- ==== Kernel.lean ====
abbrev S8x32x64x64 : Shape := ⟨4, ![8, 32, 64, 64]⟩
abbrev S36x64x64 : Shape := ⟨3, ![36, 64, 64]⟩
abbrev S8x32x36x32x32 : Shape := ⟨5, ![8, 32, 36, 32, 32]⟩
abbrev S1x32x64x64 : Shape := ⟨4, ![1, 32, 64, 64]⟩
abbrev S1x32x36x32x32 : Shape := ⟨5, ![1, 32, 36, 32, 32]⟩
abbrev S1x64x64 : Shape := ⟨3, ![1, 64, 64]⟩
abbrev S32x64x64 : Shape := ⟨3, ![32, 64, 64]⟩
abbrev S32x32x2x64 : Shape := ⟨4, ![32, 32, 2, 64]⟩
abbrev S32x32x64 : Shape := ⟨3, ![32, 32, 64]⟩
abbrev S32x32x32x2 : Shape := ⟨4, ![32, 32, 32, 2]⟩
abbrev S32x32x32 : Shape := ⟨3, ![32, 32, 32]⟩
abbrev S32x1x32x32 : Shape := ⟨4, ![32, 1, 32, 32]⟩
abbrev S1x32x1x32x32 : Shape := ⟨5, ![1, 32, 1, 32, 32]⟩

abbrev nBuf : Space → Nat
  | .hbm => 3
  | .vmem => 5
  | .smem => 0
  | _ => 0

abbrev bufTy : (tb : Table) → Fin (tcTables nBuf tb) → BufTy
  | .hbm, ⟨0, _⟩ => ⟨S8x32x64x64, .f32⟩
  | .hbm, ⟨1, _⟩ => ⟨S36x64x64, .f32⟩
  | .hbm, ⟨2, _⟩ => ⟨S8x32x36x32x32, .f32⟩
  | .local _ .vmem, ⟨0, _⟩ => ⟨S1x32x64x64, .f32⟩
  | .local _ .vmem, ⟨1, _⟩ => ⟨S1x32x64x64, .f32⟩
  | .local _ .vmem, ⟨2, _⟩ => ⟨S36x64x64, .f32⟩
  | .local _ .vmem, ⟨3, _⟩ => ⟨S1x32x36x32x32, .f32⟩
  | .local _ .vmem, ⟨4, _⟩ => ⟨S1x32x36x32x32, .f32⟩
  | _, _ => ⟨S8x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c36_i32 : BitVec 32 := 36#32
  let v0 : BitVec 32 := Scalar.addi c0_i32 c36_i32
  let c1_i32 : BitVec 32 := 1#32
  ⟨c0_i32, v0, c1_i32⟩
def k0_off1 (k0_t1 : Fin k0_t1_loop.trips) : Fin 3 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let v3 : Index := Scalar.indexCast v2
  let c0 : Index := 0#32
  let c0_3 : Index := 0#32
  ![v3.toNat, 0, 0]
def k0_off2 (k0_t1 : Fin k0_t1_loop.trips) : Fin 5 → Nat :=
  let c0_9 : Index := 0#32
  let c0_10 : Index := 0#32
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let v14 : Index := Scalar.indexCast v2
  let c0_11 : Index := 0#32
  let c0_12 : Index := 0#32
  ![0, 0, v14.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x32x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S36x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x36x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S1x64x64 : 0 < S1x64x64.numel
  inb_S1x32x64x64_S1x32x64x64_0_0_0_0 : ∀ a, (![0, 0, 0, 0] : Fin 4 → Nat) a + S1x32x64x64.size a ≤ S1x32x64x64.size a
  h_S1x32x64x64 : 0 < S1x32x64x64.numel
  shapeCasts_S1x32x64x64_S32x64x64 : S1x32x64x64.ShapeCasts S32x64x64
  broadcasts_S1x64x64_S32x64x64 : S1x64x64.Broadcasts S32x64x64
  shapeCasts_S32x64x64_S32x32x2x64 : S32x64x64.ShapeCasts S32x32x2x64
  reduces_S32x32x2x64_S32x32x64 : S32x32x2x64.Reduces [2] S32x32x64
  shapeCasts_S32x32x64_S32x32x32x2 : S32x32x64.ShapeCasts S32x32x32x2
  reduces_S32x32x32x2_S32x32x32 : S32x32x32x2.Reduces [3] S32x32x32
  shapeCasts_S32x32x32_S32x1x32x32 : S32x32x32.ShapeCasts S32x1x32x32
  h_S1x32x1x32x32 : 0 < S1x32x1x32x32.numel
  shapeCasts_S1x32x1x32x32_S32x1x32x32 : S1x32x1x32x32.ShapeCasts S32x1x32x32
  shapeCasts_S32x1x32x32_S1x32x1x32x32 : S32x1x32x32.ShapeCasts S1x32x1x32x32
  hrank0 : 0 < grid0.rank
  k0_t1_ok : k0_t1_loop.OK
  k0_off1_inb : ∀ k0_t1 : Fin k0_t1_loop.trips, ∀ a, (k0_off1 k0_t1) a + S1x64x64.size a ≤ S36x64x64.size a
  k0_off2_inb : ∀ k0_t1 : Fin k0_t1_loop.trips, ∀ a, (k0_off2 k0_t1) a + S1x32x1x32x32.size a ≤ S1x32x36x32x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64x64.size a ≤ S8x32x64x64.size a
  hwx0_0 : ∀ i : grid0.Coords, EltTy.bits .f32 = 32 ∨ (Rect.block (s := S8x32x64x64) S1x32x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S36x64x64.size a ≤ S36x64x64.size a
  hwx0_1 : ∀ i : grid0.Coords, EltTy.bits .f32 = 32 ∨ (Rect.block (s := S36x64x64) S36x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x36x32x32.size a ≤ S8x32x36x32x32.size a
  hwx0_2 : ∀ i : grid0.Coords, EltTy.bits .f32 = 32 ∨ (Rect.block (s := S8x32x36x32x32) S1x32x36x32x32.size (cc0_transform_2 i) (hinb0_2 i)).WholeWords (EltTy.packing .f32)

variable [Facts₀]

abbrev win0_0 : Pipeline.Window sig grid0 :=
  Pipeline.Window.ofSpec (Memref.whole main_arg0) S1x32x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S36x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x36x32x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32x64x64 : Shape := ⟨4, ![8, 32, 64, 64]⟩
abbrev S36x64x64 : Shape := ⟨3, ![36, 64, 64]⟩
abbrev S8x32x1x64x64 : Shape := ⟨5, ![8, 32, 1, 64, 64]⟩
abbrev S1x1x36x64x64 : Shape := ⟨5, ![1, 1, 36, 64, 64]⟩
abbrev S8x32x36x64x64 : Shape := ⟨5, ![8, 32, 36, 64, 64]⟩
abbrev S8x32x36x32x2x32x2 : Shape := ⟨7, ![8, 32, 36, 32, 2, 32, 2]⟩
abbrev S_ : Shape := ⟨0, ![]⟩
abbrev S8x32x36x32x32 : Shape := ⟨5, ![8, 32, 36, 32, 32]⟩

abbrev nBuf : Space → Nat
  | .hbm => 10
  | .vmem => 0
  | .smem => 0
  | _ => 0

abbrev bufTy : (tb : Table) → Fin (tcTables nBuf tb) → BufTy
  | .hbm, ⟨0, _⟩ => ⟨S8x32x64x64, .f32⟩
  | .hbm, ⟨1, _⟩ => ⟨S36x64x64, .f32⟩
  | .hbm, ⟨2, _⟩ => ⟨S8x32x1x64x64, .f32⟩
  | .hbm, ⟨3, _⟩ => ⟨S1x1x36x64x64, .f32⟩
  | .hbm, ⟨4, _⟩ => ⟨S8x32x36x64x64, .f32⟩
  | .hbm, ⟨5, _⟩ => ⟨S8x32x36x64x64, .f32⟩
  | .hbm, ⟨6, _⟩ => ⟨S8x32x36x64x64, .f32⟩
  | .hbm, ⟨7, _⟩ => ⟨S8x32x36x32x2x32x2, .f32⟩
  | .hbm, ⟨8, _⟩ => ⟨S_, .f32⟩
  | .hbm, ⟨9, _⟩ => ⟨S8x32x36x32x32, .f32⟩
  | _, _ => ⟨S8x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S8x32x64x64_S8x32x1x64x64_0_1_3_4 : S8x32x64x64.BroadcastsInDim S8x32x1x64x64 (![0, 1, 3, 4] : Fin 4 → Fin S8x32x1x64x64.rank)
  bcast_S36x64x64_S1x1x36x64x64_2_3_4 : S36x64x64.BroadcastsInDim S1x1x36x64x64 (![2, 3, 4] : Fin 3 → Fin S1x1x36x64x64.rank)
  bcast_S8x32x1x64x64_S8x32x36x64x64_0_1_2_3_4 : S8x32x1x64x64.BroadcastsInDim S8x32x36x64x64 (![0, 1, 2, 3, 4] : Fin 5 → Fin S8x32x36x64x64.rank)
  bcast_S1x1x36x64x64_S8x32x36x64x64_0_1_2_3_4 : S1x1x36x64x64.BroadcastsInDim S8x32x36x64x64 (![0, 1, 2, 3, 4] : Fin 5 → Fin S8x32x36x64x64.rank)
  shapeCasts_S8x32x36x64x64_S8x32x36x32x2x32x2 : S8x32x36x64x64.ShapeCasts S8x32x36x32x2x32x2
  reducesTo_S8x32x36x32x2x32x2_S8x32x36x32x32_d4_6 : S8x32x36x32x2x32x2.ReducesTo [4, 6] S8x32x36x32x32
  h_S_ : 0 < S_.numel

variable [Facts₀]

class Facts : Prop extends Facts₀ where

variable [Facts]
-- ==== Proof.PoolSpec.lean ====
/-
  Masked 2x2 sum-pooling, as one function of the two argument arrays.

  For an input u of shape [8, 32, 64, 64] and masks rf of shape [36, 64, 64] the result at
  (b, c, k, i, j) is the sum, over the 2x2 block of rows 2i, 2i+1 and columns 2j, 2j+1, of
  u[b, c, h, w] * rf[k, h, w], an extended real.  The same function of ONE batch slice of u
  (shape [1, 32, 64, 64]) gives the batch slice of the result (shape [1, 32, 36, 32, 32]); that is
  what one grid point of the kernel computes.
-/
import Idealize.ShloMosaic.PureOps.Ideal
import Idealize.ShloMosaic.Lib.ValueIdx

noncomputable section

namespace Cert.Pool

open Idealize.ShloMosaic Idealize.ShloMosaic.ValueIdx

/-- Row (or column) `2 i + d` of the 64: entry `d` of pooling block `i`. -/
def sub (i : Fin 32) (d : Fin 2) : Fin 64 := ⟨2 * i.val + d.val, by omega⟩

theorem sub_val (i : Fin 32) (d : Fin 2) : (sub i d).val = 2 * i.val + d.val := rfl

/-- The pooled value at (b, c, k, i, j): the sum over the 2x2 block of the masked input. -/
def poolAt (u : (⟨4, ![8, 32, 64, 64]⟩ : Shape).Idx → EReal) (rf : (⟨3, ![36, 64, 64]⟩ : Shape).Idx → EReal)
    (b : Fin 8) (c : Fin 32) (k : Fin 36) (i j : Fin 32) : EReal :=
  ∑ dh : Fin 2, ∑ dw : Fin 2, u (ix4 b c (sub i dh) (sub j dw)) * rf (ix3 k (sub i dh) (sub j dw))

/-- The whole result array. -/
def pool (u : (⟨4, ![8, 32, 64, 64]⟩ : Shape).Idx → EReal) (rf : (⟨3, ![36, 64, 64]⟩ : Shape).Idx → EReal) :
    (⟨5, ![8, 32, 36, 32, 32]⟩ : Shape).Idx → EReal :=
  fun y => poolAt u rf (y 0) (y 1) (y 2) (y 3) (y 4)

theorem pool_ix5 (u : (⟨4, ![8, 32, 64, 64]⟩ : Shape).Idx → EReal) (rf : (⟨3, ![36, 64, 64]⟩ : Shape).Idx → EReal)
    (b : Fin 8) (c : Fin 32) (k : Fin 36) (i j : Fin 32) : pool u rf (ix5 b c k i j) = poolAt u rf b c k i j := rfl

/-- The same sum over one batch slice of the input: the value at (c, k, i, j) of the slice of the result. -/
def poolSliceAt (x : (⟨4, ![1, 32, 64, 64]⟩ : Shape).Idx → EReal) (rf : (⟨3, ![36, 64, 64]⟩ : Shape).Idx → EReal)
    (c : Fin 32) (k : Fin 36) (i j : Fin 32) : EReal :=
  ∑ dh : Fin 2, ∑ dw : Fin 2, x (ix4 (0 : Fin 1) c (sub i dh) (sub j dw)) * rf (ix3 k (sub i dh) (sub j dw))

/-- One batch slice of the result, as a function of one batch slice of the input and of all the masks. -/
def poolSlice (x : (⟨4, ![1, 32, 64, 64]⟩ : Shape).Idx → EReal) (rf : (⟨3, ![36, 64, 64]⟩ : Shape).Idx → EReal) :
    (⟨5, ![1, 32, 36, 32, 32]⟩ : Shape).Idx → EReal :=
  fun y => poolSliceAt x rf (y 1) (y 2) (y 3) (y 4)

theorem poolSlice_ix5 (x : (⟨4, ![1, 32, 64, 64]⟩ : Shape).Idx → EReal) (rf : (⟨3, ![36, 64, 64]⟩ : Shape).Idx → EReal)
    (a : Fin 1) (c : Fin 32) (k : Fin 36) (i j : Fin 32) :
    poolSlice x rf (ix5 a c k i j) = poolSliceAt x rf c k i j := rfl

end Cert.Pool

end
-- ==== Proof.LayoutAt.lean ====
/-
  The kernel body's layout operations and its two short sums, each read at one entry.

  The body works on a [32, 64, 64] product (channel, row, column).  It splits the 64 rows into 32
  pairs, sums each pair, splits the 64 columns into 32 pairs, sums each pair, and then adds two unit
  axes to store the [32, 32, 32] result as a [1, 32, 1, 32, 32] slab.  A reshape keeps the row-major
  position, so entry (c, i, d, q) of the [32, 32, 2, 64] view is entry (c, 2i + d, q) of the
  [32, 64, 64] array, and likewise for columns; a sum over an axis of extent 2 at the ideal values is
  the two-term sum over that axis's coordinate.
-/
import Idealize.ShloMosaic.PureOps.Ideal.Laws
import Idealize.ShloMosaic.Lib.ValueIdx
import Idealize.ShloMosaic.Lib.ValueLayout
import Idealize.ShloMosaic.Lib.Pipeline.Value
import proofs.«173572_j35089882808587_1_alg».proof.Proof.PoolSpec

noncomputable section

namespace Cert.Pool.Layout

open Idealize.ShloMosaic Idealize.ShloMosaic.ValueIdx Cert.Pool

variable {α : Type}

/-- Dropping the leading unit axis of a [1, 32, 64, 64] block: entry (c, p, q) is entry (0, c, p, q). -/
theorem drop_batch (x : (⟨4, ![1, 32, 64, 64]⟩ : Shape).Idx → α)
    (h : (⟨4, ![1, 32, 64, 64]⟩ : Shape).ShapeCasts ⟨3, ![32, 64, 64]⟩) (c : Fin 32) (p q : Fin 64) :
    shapeCast ⟨3, ![32, 64, 64]⟩ x h (ix3 c p q) = x (ix4 (0 : Fin 1) c p q) :=
  shapeCast_1abc_abc_apply x h c p q

/-- One [1, 64, 64] mask broadcast over the 32 channels: entry (c, p, q) is the mask's entry (0, p, q). -/
theorem bcast_channels (x : (⟨3, ![1, 64, 64]⟩ : Shape).Idx → α)
    (h : (⟨3, ![1, 64, 64]⟩ : Shape).Broadcasts ⟨3, ![32, 64, 64]⟩) (c : Fin 32) (p q : Fin 64) :
    broadcastTo ⟨3, ![32, 64, 64]⟩ x h (ix3 c p q) = x (ix3 (0 : Fin 1) p q) :=
  broadcastTo_apply x h _ _ fun a => match a with
    | ⟨0, _⟩ => rfl
    | ⟨1, _⟩ => rfl
    | ⟨2, _⟩ => rfl

/-- The 64 rows seen as 32 pairs: entry (c, i, d, q) of the view is entry (c, 2i + d, q). -/
theorem split_rows (x : (⟨3, ![32, 64, 64]⟩ : Shape).Idx → α)
    (h : (⟨3, ![32, 64, 64]⟩ : Shape).ShapeCasts ⟨4, ![32, 32, 2, 64]⟩) (c i : Fin 32) (d : Fin 2) (q : Fin 64) :
    shapeCast ⟨4, ![32, 32, 2, 64]⟩ x h (ix4 c i d q) = x (ix3 c (sub i d) q) :=
  shapeCast_apply x h _ _ (by
    rw [Shape.rowMajor_val_three, Shape.rowMajor_val_four]
    show (c.val * 64 + (2 * i.val + d.val)) * 64 + q.val = ((c.val * 32 + i.val) * 2 + d.val) * 64 + q.val
    omega)

/-- The 64 columns seen as 32 pairs: entry (c, i, j, d) of the view is entry (c, i, 2j + d). -/
theorem split_cols (x : (⟨3, ![32, 32, 64]⟩ : Shape).Idx → α)
    (h : (⟨3, ![32, 32, 64]⟩ : Shape).ShapeCasts ⟨4, ![32, 32, 32, 2]⟩) (c i j : Fin 32) (d : Fin 2) :
    shapeCast ⟨4, ![32, 32, 32, 2]⟩ x h (ix4 c i j d) = x (ix3 c i (sub j d)) :=
  shapeCast_apply x h _ _ (by
    rw [Shape.rowMajor_val_three, Shape.rowMajor_val_four]
    show (c.val * 32 + i.val) * 64 + (2 * j.val + d.val) = ((c.val * 32 + i.val) * 32 + j.val) * 2 + d.val
    omega)

/-- A unit axis added after the channel axis: entry (c, u, i, j) is entry (c, i, j). -/
theorem add_mask_axis (x : (⟨3, ![32, 32, 32]⟩ : Shape).Idx → α)
    (h : (⟨3, ![32, 32, 32]⟩ : Shape).ShapeCasts ⟨4, ![32, 1, 32, 32]⟩) (c : Fin 32) (u : Fin 1) (i j : Fin 32) :
    shapeCast ⟨4, ![32, 1, 32, 32]⟩ x h (ix4 c u i j) = x (ix3 c i j) :=
  shapeCast_apply x h _ _ (by
    have hu : u.val = 0 := by omega
    rw [Shape.rowMajor_val_three, Shape.rowMajor_val_four]
    show (c.val * 32 + i.val) * 32 + j.val = ((c.val * 1 + u.val) * 32 + i.val) * 32 + j.val
    omega)

/-- A leading unit axis added: entry (a, c, u, i, j) is entry (c, u, i, j). -/
theorem add_batch_axis (x : (⟨4, ![32, 1, 32, 32]⟩ : Shape).Idx → α)
    (h : (⟨4, ![32, 1, 32, 32]⟩ : Shape).ShapeCasts ⟨5, ![1, 32, 1, 32, 32]⟩) (a : Fin 1) (c : Fin 32) (u : Fin 1)
    (i j : Fin 32) :
    shapeCast ⟨5, ![1, 32, 1, 32, 32]⟩ x h (ix5 a c u i j) = x (ix4 c u i j) :=
  shapeCast_apply x h _ _ (by
    have ha : a.val = 0 := by omega
    rw [Shape.rowMajor_val_four, Shape.rowMajor_val_five]
    show ((c.val * 1 + u.val) * 32 + i.val) * 32 + j.val
      = (((a.val * 32 + c.val) * 1 + u.val) * 32 + i.val) * 32 + j.val
    omega)

/-- The sum over the pair of rows, at the ideal values: the two entries added. -/
theorem sum_row_pair (x : FVec Ideal ⟨4, ![32, 32, 2, 64]⟩ .f32)
    (h : (⟨4, ![32, 32, 2, 64]⟩ : Shape).Reduces [2] ⟨3, ![32, 32, 64]⟩) (hφ : FKind.Formats .f32)
    (hacc : (0x00000000#32 : BitVec 32) = FKind.add.neutral .f32 hφ) (c i : Fin 32) (q : Fin 64) :
    multiReduction .add [2] ⟨3, ![32, 32, 64]⟩ x 0x00000000#32 h hφ hacc (ix3 c i q)
      = ∑ d : Fin 2, x (ix4 c i d q) := by
  refine (Ideal.multiReduction_add_single x _ h hφ hacc (ix3 c i q)).trans ?_
  show ∑ d : Fin 2, x (h.lift (ix3 c i q) d) = _
  refine Finset.sum_congr rfl fun d _ => congrArg x ?_
  funext a
  apply Fin.ext
  match a with
  | ⟨0, _⟩ => rfl
  | ⟨1, _⟩ => rfl
  | ⟨2, _⟩ => rfl
  | ⟨3, _⟩ => rfl

/-- The sum over the pair of columns, at the ideal values: the two entries added. -/
theorem sum_col_pair (x : FVec Ideal ⟨4, ![32, 32, 32, 2]⟩ .f32)
    (h : (⟨4, ![32, 32, 32, 2]⟩ : Shape).Reduces [3] ⟨3, ![32, 32, 32]⟩) (hφ : FKind.Formats .f32)
    (hacc : (0x00000000#32 : BitVec 32) = FKind.add.neutral .f32 hφ) (c i j : Fin 32) :
    multiReduction .add [3] ⟨3, ![32, 32, 32]⟩ x 0x00000000#32 h hφ hacc (ix3 c i j)
      = ∑ d : Fin 2, x (ix4 c i j d) := by
  refine (Ideal.multiReduction_add_single x _ h hφ hacc (ix3 c i j)).trans ?_
  show ∑ d : Fin 2, x (h.lift (ix3 c i j) d) = _
  refine Finset.sum_congr rfl fun d _ => congrArg x ?_
  funext a
  apply Fin.ext
  match a with
  | ⟨0, _⟩ => rfl
  | ⟨1, _⟩ => rfl
  | ⟨2, _⟩ => rfl
  | ⟨3, _⟩ => rfl

end Cert.Pool.Layout

end
-- ==== Proof.KernelPayload.lean ====
/-
  What one trip of the kernel's loop stores, read at one entry.

  A trip takes one [1, 64, 64] mask and the whole [1, 32, 64, 64] input slice, multiplies them
  (the mask broadcast over the channels), sums each pair of rows, then each pair of columns.  So entry
  (c, i, j) of what it stores is the sum over the column offset of the sum over the row offset of
  input[c, 2i + dh, 2j + dw] * mask[2i + dh, 2j + dw].
-/
import proofs.«173572_j35089882808587_1_alg».proof.Proof.Gen.KernelIdeal.Skeleton
import proofs.«173572_j35089882808587_1_alg».proof.Proof.LayoutAt

noncomputable section

namespace Cert.Pool.Payload

open Idealize.ShloMosaic Idealize.ShloMosaic.ValueIdx Cert.Pool Cert.KernelIdeal Cert.KernelIdeal.Gen

/-- The stored slab at (a, c, u, i, j), the two unit coordinates a and u being 0: the 2x2 sum of the masked slice. -/
theorem pay_apply (v4 : FVec Ideal S1x64x64 .f32) (v5 : Vec Ideal S1x32x64x64 .f32) (a : Fin 1) (c : Fin 32) (u : Fin 1)
    (i j : Fin 32) :
    k0_pay1 v4 v5 (ix5 a c u i j)
      = ∑ dw : Fin 2, ∑ dh : Fin 2,
          v5 (ix4 (0 : Fin 1) c (sub i dh) (sub j dw)) * v4 (ix3 (0 : Fin 1) (sub i dh) (sub j dw)) := by
  unfold k0_pay1
  refine (Layout.add_batch_axis _ _ a c u i j).trans ?_
  refine (Layout.add_mask_axis _ _ c u i j).trans ?_
  refine (Layout.sum_col_pair _ _ _ _ c i j).trans ?_
  refine Finset.sum_congr rfl fun dw _ => ?_
  refine (Layout.split_cols _ _ c i j dw).trans ?_
  refine (Layout.sum_row_pair _ _ _ _ c i (sub j dw)).trans ?_
  refine Finset.sum_congr rfl fun dh _ => ?_
  refine (Layout.split_rows _ _ c i dh (sub j dw)).trans ?_
  refine (mulf_apply _ _ _).trans ?_
  rw [Layout.drop_batch, Layout.bcast_channels]

end Cert.Pool.Payload

end
-- ==== Proof.KernelPieces.lean ====
/-
  What one grid point's body leaves in its output block.

  The body loops over the 36 masks; trip k stores, into mask-slot k of the [1, 32, 36, 32, 32] output
  block, the pooled product of the input slice with mask k.  So every store is the restriction, to
  the slab it writes, of ONE function of the block's index: the pooled value of the slice.  The 36
  slabs tile the block, hence the block ends holding that function everywhere.
-/
import proofs.«173572_j35089882808587_1_alg».proof.Proof.Gen.KernelIdeal.Frame
import proofs.«173572_j35089882808587_1_alg».proof.Proof.KernelPayload
import Idealize.ShloMosaic.Lib.Pipeline.Value

noncomputable section

namespace Cert.Pool.Pieces

open Idealize.ShloMosaic Idealize.ShloMosaic.TcCoe Idealize.ShloMosaic.ValueIdx Idealize.SL.Sem
open Cert.Pool Cert.KernelIdeal Cert.KernelIdeal.Gen

theorem zero4 : (![0, 0, 0, 0] : Fin 4 → Nat) = fun _ => 0 := funext fun a => by fin_cases a <;> rfl

/-- The loop has at most 36 trips. -/
theorem trip_lt (k : Fin k0_t1_loop.trips) : k.val < 36 := Nat.lt_of_lt_of_le k.isLt k0_t1_abs.2.1

/-- Trip k's store lands in mask-slot k: local entry (a, c, u, i, j) of the slab is entry (0, c, k, i, j) of the block. -/
theorem store_emb (k : Fin k0_t1_loop.trips) (a : Fin 1) (c : Fin 32) (u : Fin 1) (i j : Fin 32) :
    (Rect.unit (s := S1x32x36x32x32) (k0_off2 k) S1x32x1x32x32.size (k0_off2_inb k)).emb (ix5 a c u i j)
      = ix5 (0 : Fin 1) c (⟨k.val, trip_lt k⟩ : Fin 36) i j := by
  have ha : a.val = 0 := by omega
  have hu : u.val = 0 := by omega
  have e0 : k0_off2 k 0 = 0 := congrFun (k0_off2_eq k) 0
  have e1 : k0_off2 k 1 = 0 := congrFun (k0_off2_eq k) 1
  have e2 : k0_off2 k 2 = k.val := congrFun (k0_off2_eq k) 2
  have e3 : k0_off2 k 3 = 0 := congrFun (k0_off2_eq k) 3
  have e4 : k0_off2 k 4 = 0 := congrFun (k0_off2_eq k) 4
  funext b
  apply Fin.ext
  match b with
  | ⟨0, _⟩ => show k0_off2 k 0 + 1 * a.val = 0; omega
  | ⟨1, _⟩ => show k0_off2 k 1 + 1 * c.val = c.val; omega
  | ⟨2, _⟩ => show k0_off2 k 2 + 1 * u.val = k.val; omega
  | ⟨3, _⟩ => show k0_off2 k 3 + 1 * i.val = i.val; omega
  | ⟨4, _⟩ => show k0_off2 k 4 + 1 * j.val = j.val; omega

/-- Trip k's mask load reads mask k: local entry (z, p, q) is entry (k, p, q) of the masks. -/
theorem mask_idx (k : Fin k0_t1_loop.trips) (z : Fin 1) (p q : Fin 64) :
    (Rect.unit (s := S36x64x64) (k0_off1 k) S1x64x64.size (k0_off1_inb k)).idx (ix3 z p q)
      = ix3 (⟨k.val, trip_lt k⟩ : Fin 36) p q := by
  have hz : z.val = 0 := by omega
  have e0 : k0_off1 k 0 = k.val := congrFun (k0_off1_eq k) 0
  have e1 : k0_off1 k 1 = 0 := congrFun (k0_off1_eq k) 1
  have e2 : k0_off1 k 2 = 0 := congrFun (k0_off1_eq k) 2
  funext b
  apply Fin.ext
  match b with
  | ⟨0, _⟩ => show k0_off1 k 0 + 1 * z.val = k.val; omega
  | ⟨1, _⟩ => show k0_off1 k 1 + 1 * p.val = p.val; omega
  | ⟨2, _⟩ => show k0_off1 k 2 + 1 * q.val = q.val; omega

/-- What trip k stores is the pooled slice restricted to the slab it writes. -/
theorem store_is_block (x0 : Vec Ideal S1x32x64x64 .f32) (x1 : Vec Ideal S36x64x64 .f32)
    (arg1 : Memref sig .tc .vmem S1x32x64x64 .f32) (harg1 : arg1.IsWhole)
    (arg2 : Memref sig .tc .vmem S36x64x64 .f32) (harg2 : arg2.IsWhole)
    (k : Fin k0_t1_loop.trips) (x : S1x32x1x32x32.Idx) :
    k0_pay1
        (View.readAt (Elt Ideal) arg2.view
          (Rect.unit (s := S36x64x64) (k0_off1 k) S1x64x64.size (k0_off1_inb k)).toLoadRect (harg2.unread x1))
        (View.readAt (Elt Ideal) arg1.view
          (Rect.unit (s := S1x32x64x64) ![0, 0, 0, 0] S1x32x64x64.size inb_S1x32x64x64_S1x32x64x64_0_0_0_0).toLoadRect
          (harg1.unread x0)) x
      = poolSlice x0 x1
          ((Rect.unit (s := S1x32x36x32x32) (k0_off2 k) S1x32x1x32x32.size (k0_off2_inb k)).emb x) := by
  rw [View.readAt_eq_ld, View.readAt_eq_ld, harg1.read_unread, harg2.read_unread,
    View.ld_unit_zero (S := S1x32x64x64) zero4]
  obtain ⟨a, c, u, i, j, rfl⟩ : ∃ (a : Fin 1) (c : Fin 32) (u : Fin 1) (i j : Fin 32), x = ix5 a c u i j :=
    ⟨x 0, x 1, x 2, x 3, x 4, eq_ix5 x⟩
  rw [Payload.pay_apply, store_emb, poolSlice_ix5]
  unfold poolSliceAt
  rw [Finset.sum_comm]
  refine Finset.sum_congr rfl fun dh _ => Finset.sum_congr rfl fun dw _ => ?_
  exact congrArg (fun z => x0 (ix4 (0 : Fin 1) c (sub i dh) (sub j dw)) * x1 z) (mask_idx k 0 (sub i dh) (sub j dw))

end Cert.Pool.Pieces

end
-- ==== Proof.KernelBlock.lean ====
/-
  The output block one grid point leaves, as one function of that point's input slice and the masks.

  The body's run ends with the list of the stores the 36 trips made, newest first.  Each trip makes
  exactly one store, and that store is a slab of the pooled slice (the previous module).  By induction
  over the trips every store in the list is a slab of that one function; the slabs cover the block;
  hence the block reads as the pooled slice at every entry.
-/
import proofs.«173572_j35089882808587_1_alg».proof.Proof.KernelPieces

noncomputable section

namespace Cert.Pool.Block

open Idealize.ShloMosaic Idealize.ShloMosaic.TcCoe Idealize.ShloMosaic.ValueIdx Idealize.SL.Sem
open Cert.Pool Cert.KernelIdeal Cert.KernelIdeal.Gen

/-- One trip makes one store: at mask-slot k, of the body's arithmetic on mask k and the whole input slice. -/
theorem trip_pieces (𝒱 : Variants) (c : Dev nD) (bd : Option 𝒱.V) (i : grid0.Coords)
    (arg1 : Memref sig .tc .vmem S1x32x64x64 .f32) (harg1 : arg1.IsWhole)
    (arg2 : Memref sig .tc .vmem S36x64x64 .f32) (harg2 : arg2.IsWhole)
    (arg3 : Memref sig .tc .vmem S1x32x36x32x32 .f32) (harg3 : arg3.IsWhole)
    (X_arg1 : BufTy.Contents (Elt Ideal) arg1.view.ty) (X_arg2 : BufTy.Contents (Elt Ideal) arg2.view.ty)
    (k : Fin k0_t1_loop.trips) :
    tripL_k0_t1 (F := Ideal) 𝒱 c bd i arg1 harg1 arg2 harg2 arg3 harg3 X_arg1 X_arg2 k
      = [(⟨Rect.unit (s := S1x32x36x32x32) (k0_off2 k) S1x32x1x32x32.size (k0_off2_inb k),
          k0_pay1
            (View.readAt (Elt Ideal) arg2.view
              (Rect.unit (s := S36x64x64) (k0_off1 k) S1x64x64.size (k0_off1_inb k)).toLoadRect X_arg2)
            (View.readAt (Elt Ideal) arg1.view
              (Rect.unit (s := S1x32x64x64) ![0, 0, 0, 0] S1x32x64x64.size
                inb_S1x32x64x64_S1x32x64x64_0_0_0_0).toLoadRect X_arg1)⟩ :
          View.Piece (Elt Ideal) S1x32x36x32x32 .f32)] := by
  unfold tripL_k0_t1 trip_k0_t1
  rfl

/-- The run's list of stores is the list the trips built, all 36 of them. -/
theorem run_pieces (c : Dev nD) (i : grid0.Coords)
    (arg1 : Memref sig .tc .vmem S1x32x64x64 .f32) (harg1 : arg1.IsWhole)
    (arg2 : Memref sig .tc .vmem S36x64x64 .f32) (harg2 : arg2.IsWhole)
    (arg3 : Memref sig .tc .vmem S1x32x36x32x32 .f32) (harg3 : arg3.IsWhole)
    (x0 : Vec Ideal S1x32x64x64 .f32) (x1 : Vec Ideal S36x64x64 .f32) :
    (kernelRun0_A (F := Ideal) c i arg1 harg1 arg2 harg2 arg3 harg3 x0 x1).1
      = pb_k0_t1 (F := Ideal) Variants.none c none i arg1 harg1 arg2 harg2 arg3 harg3 (harg1.unread x0)
          (harg2.unread x1) k0_t1_loop.trips := by
  unfold kernelRun0_A
  rfl

/-- Every store of the first n trips is a slab of the pooled slice. -/
theorem stores_are_blocks (c : Dev nD) (i : grid0.Coords)
    (arg1 : Memref sig .tc .vmem S1x32x64x64 .f32) (harg1 : arg1.IsWhole)
    (arg2 : Memref sig .tc .vmem S36x64x64 .f32) (harg2 : arg2.IsWhole)
    (arg3 : Memref sig .tc .vmem S1x32x36x32x32 .f32) (harg3 : arg3.IsWhole)
    (x0 : Vec Ideal S1x32x64x64 .f32) (x1 : Vec Ideal S36x64x64 .f32) :
    ∀ n : ℕ, ∀ p ∈ pb_k0_t1 (F := Ideal) Variants.none c none i arg1 harg1 arg2 harg2 arg3 harg3 (harg1.unread x0)
        (harg2.unread x1) n, ∀ x : p.1.shape.Idx, p.2 x = poolSlice x0 x1 (p.1.emb x)
  | 0 => fun p hp => absurd hp List.not_mem_nil
  | n + 1 => fun p hp => by
    rw [pb_k0_t1.eq_2] at hp
    unfold pb_k0_t1Step at hp
    split at hp
    · rename_i h
      rcases List.mem_append.mp hp with h1 | h2
      · rw [trip_pieces] at h1
        obtain rfl := List.mem_singleton.mp h1
        exact fun x => Pieces.store_is_block x0 x1 arg1 harg1 arg2 harg2 ⟨n, h⟩ x
      · exact stores_are_blocks c i arg1 harg1 arg2 harg2 arg3 harg3 x0 x1 n p h2
    · exact stores_are_blocks c i arg1 harg1 arg2 harg2 arg3 harg3 x0 x1 n p hp

/-- What the body leaves in the output block: the pooled slice. -/
theorem out_eq (c : Dev nD) (i : grid0.Coords)
    (arg1 : Memref sig .tc .vmem S1x32x64x64 .f32) (harg1 : arg1.IsWhole)
    (arg2 : Memref sig .tc .vmem S36x64x64 .f32) (harg2 : arg2.IsWhole)
    (arg3 : Memref sig .tc .vmem S1x32x36x32x32 .f32) (harg3 : arg3.IsWhole)
    (x0 : Vec Ideal S1x32x64x64 .f32) (x1 : Vec Ideal S36x64x64 .f32) :
    out0_A_2 (F := Ideal) c i arg1 harg1 arg2 harg2 arg3 harg3 x0 x1 = poolSlice x0 x1 := by
  unfold out0_A_2
  rw [View.read_writes_eq_canon _ _ _ (cover0_A_2 c i arg1 harg1 arg2 harg2 arg3 harg3 x0 x1)]
  funext y
  refine View.canon_apply_of_pieces (poolSlice x0 x1) _ ?_ y
    (cover0_A_2 c i arg1 harg1 arg2 harg2 arg3 harg3 x0 x1 y)
  rw [run_pieces]
  exact stores_are_blocks c i arg1 harg1 arg2 harg2 arg3 harg3 x0 x1 _

end Cert.Pool.Block

end
-- ==== Proof.KernelValue.lean ====
/-
  From the grid's blocks to the whole result array.

  The grid has 8 points, one per batch entry.  Point t fetches batch slice t of the input and all the
  masks, and writes back batch slice t of the result.  Its body leaves the pooled slice in the output
  block (the previous module), and the pooled slice of input slice t IS batch slice t of the pooled
  array: the two sums have the same terms.  The 8 slices cover the result, so after the run the
  result array is the pooled array, entry by entry.
-/
import proofs.«173572_j35089882808587_1_alg».proof.Proof.Gen.KernelIdeal.Value
import proofs.«173572_j35089882808587_1_alg».proof.Proof.KernelBlock

noncomputable section

namespace Cert.Pool.KernelValue

open Idealize.ShloMosaic Idealize.ShloMosaic.TcCoe Idealize.ShloMosaic.ValueIdx Idealize.SL.Sem
open Idealize.ShloMosaic.Pipeline (Dat)
open Cert.Pool Cert.KernelIdeal Cert.KernelIdeal.Gen Cert.KernelIdeal.Value

variable (m : (ℓ : Loc nD τ sig) → Buf (Elt Ideal) ℓ) (ρ : Dev nD → PrngReg)

/-- The three index maps over the grid: the input and the result move along the batch axis with the
    point, the masks never move. -/
theorem idx_facts : ∀ t : Fin cfg0.N,
    win0_0.index t (0 : Fin 4) = t.val ∧ win0_0.index t (1 : Fin 4) = 0
    ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 5) = t.val ∧ win0_2.index t (1 : Fin 5) = 0 ∧ win0_2.index t (2 : Fin 5) = 0
    ∧ win0_2.index t (3 : Fin 5) = 0 ∧ win0_2.index t (4 : Fin 5) = 0 :=
  (by decide +kernel : ∀ t : Fin grid0.N, _)

theorem point_lt (t : Fin cfg0.N) : t.val < 8 := by
  have hN : cfg0.N = 8 := N_0
  have := t.isLt
  omega

/-- The input array and the masks, as launched, on core c. -/
abbrev inputArr (c : Dev nD) : S8x32x64x64.Idx → Elt Ideal .f32 := m ((c : Thread nD τ).loc main_arg0)
abbrev masksArr (c : Dev nD) : S36x64x64.Idx → Elt Ideal .f32 := m ((c : Thread nD τ).loc main_arg1)

/-- Point t's input block is batch slice t of the input. -/
theorem slice_apply (c : Dev nD) (t : Fin cfg0.N) (z : Fin 1) (ch : Fin 32) (p q : Fin 64) :
    (iblk m c 0 t : Vec Ideal S1x32x64x64 .f32) (ix4 z ch p q)
      = inputArr m c (ix4 (⟨t.val, point_lt t⟩ : Fin 8) ch p q) := by
  obtain ⟨e0, e1, e2, e3, -⟩ := idx_facts t
  have hz : z.val = 0 := by omega
  unfold iblk
  rw [View.read_apply]
  show V m c main_arg0 _ = m (c.tc.loc main_arg0) _
  unfold V
  congr 1
  funext a
  apply Fin.ext
  match a with
  | ⟨0, _⟩ => show win0_0.index t 0 * 1 + 1 * z.val = t.val; omega
  | ⟨1, _⟩ => show win0_0.index t 1 * 32 + 1 * ch.val = ch.val; omega
  | ⟨2, _⟩ => show win0_0.index t 2 * 64 + 1 * p.val = p.val; omega
  | ⟨3, _⟩ => show win0_0.index t 3 * 64 + 1 * q.val = q.val; omega

/-- Every point's mask block is all the masks. -/
theorem masks_apply (c : Dev nD) (t : Fin cfg0.N) (k : Fin 36) (p q : Fin 64) :
    (iblk m c 1 t : Vec Ideal S36x64x64 .f32) (ix3 k p q) = masksArr m c (ix3 k p q) := by
  obtain ⟨-, -, -, -, e0, e1, e2, -⟩ := idx_facts t
  unfold iblk
  rw [View.read_apply]
  show V m c main_arg1 _ = m (c.tc.loc main_arg1) _
  unfold V
  congr 1
  funext a
  apply Fin.ext
  match a with
  | ⟨0, _⟩ => show win0_1.index t 0 * 36 + 1 * k.val = k.val; omega
  | ⟨1, _⟩ => show win0_1.index t 1 * 64 + 1 * p.val = p.val; omega
  | ⟨2, _⟩ => show win0_1.index t 2 * 64 + 1 * q.val = q.val; omega

/-- Entry (a, ch, k, i, j) of point t's output block is entry (t, ch, k, i, j) of the result array. -/
theorem out_emb (t : Fin cfg0.N) (a : Fin 1) (ch : Fin 32) (k : Fin 36) (i j : Fin 32) :
    (((cfg0.win 2).blk t).view.emb (ix5 a ch k i j) : S8x32x36x32x32.Idx)
      = ix5 (⟨t.val, point_lt t⟩ : Fin 8) ch k i j := by
  obtain ⟨-, -, -, -, -, -, -, e0, e1, e2, e3, e4⟩ := idx_facts t
  have ha : a.val = 0 := by omega
  funext b
  apply Fin.ext
  match b with
  | ⟨0, _⟩ => show win0_2.index t 0 * 1 + 1 * a.val = t.val; omega
  | ⟨1, _⟩ => show win0_2.index t 1 * 32 + 1 * ch.val = ch.val; omega
  | ⟨2, _⟩ => show win0_2.index t 2 * 36 + 1 * k.val = k.val; omega
  | ⟨3, _⟩ => show win0_2.index t 3 * 32 + 1 * i.val = i.val; omega
  | ⟨4, _⟩ => show win0_2.index t 4 * 32 + 1 * j.val = j.val; omega

/-- The pooled slice of input slice t, at a block entry, is the pooled array at the entry of the result
    array that the block entry names. -/
theorem block_entry (c : Dev nD) (t : Fin cfg0.N) (y : S1x32x36x32x32.Idx) :
    poolSlice (iblk m c 0 t : Vec Ideal S1x32x64x64 .f32) (iblk m c 1 t : Vec Ideal S36x64x64 .f32) y
      = pool (inputArr m c) (masksArr m c) (((cfg0.win 2).blk t).view.emb y) := by
  obtain ⟨a, ch, k, i, j, rfl⟩ : ∃ (a : Fin 1) (ch : Fin 32) (k : Fin 36) (i j : Fin 32), y = ix5 a ch k i j :=
    ⟨y 0, y 1, y 2, y 3, y 4, eq_ix5 y⟩
  rw [out_emb, pool_ix5, poolSlice_ix5]
  unfold poolAt poolSliceAt
  refine Finset.sum_congr rfl fun dh _ => Finset.sum_congr rfl fun dw _ => ?_
  rw [slice_apply, masks_apply]

/-- What point t writes back is block t of the pooled array. -/
theorem flushed_eq (c : Dev nD) (t : Fin cfg0.N) :
    (dats m 0 c).flushed 2 t
      = ((cfg0.win 2).blk t).view.read (Elt Ideal) (pool (inputArr m c) (masksArr m c)) := by
  refine (flushed2_A m c t).trans ?_
  refine (congrArg ((cfg0.win 2).cut (grid0.coords t))
    (Block.out_eq c (grid0.coords t) (ms0_0 t) (hs0_0 t) (ms0_1 t) (hs0_1 t) (ms0_2 t) (hs0_2 t) (iblk m c 0 t)
      (iblk m c 1 t))).trans ?_
  funext y
  exact block_entry m c t y

/-- An index of the result array is in point t's block iff each coordinate is in the block's range. -/
theorem mem_blk (t : Fin cfg0.N) (i : S8x32x36x32x32.Idx) :
    i ∈ ((cfg0.win 2).blk t).view.set ↔ ∀ a : Fin 5, win0_2.index t a * S1x32x36x32x32.size a ≤ (i a).val
      ∧ (i a).val < win0_2.index t a * S1x32x36x32x32.size a + S1x32x36x32x32.size a := by
  show i ∈ ((View.whole main_v0).slice (win0_2.rect t)).set ↔ _
  rw [View.set_slice_whole, Rect.mem_set_unit]
  exact Iff.rfl

/-- Every index of the result array lies in the block of the point its batch coordinate names. -/
theorem covered (i : S8x32x36x32x32.Idx) :
    ∃ t : Fin cfg0.N, (cfg0.win 2).flush t = true ∧ i ∈ ((cfg0.win 2).blk t).view.set := by
  have hN : cfg0.N = 8 := N_0
  have h0 : (i 0).val < 8 := (i 0).isLt
  have h1 : (i 1).val < 32 := (i 1).isLt
  have h2 : (i 2).val < 36 := (i 2).isLt
  have h3 : (i 3).val < 32 := (i 3).isLt
  have h4 : (i 4).val < 32 := (i 4).isLt
  obtain ⟨t, ht⟩ : ∃ t : Fin cfg0.N, t.val = (i 0).val := ⟨⟨(i 0).val, by omega⟩, rfl⟩
  refine ⟨t, flush0_2 t, ?_⟩
  rw [mem_blk]
  obtain ⟨-, -, -, -, -, -, -, e0, e1, e2, e3, e4⟩ := idx_facts t
  intro a
  match a with
  | ⟨0, _⟩ => show win0_2.index t 0 * 1 ≤ (i 0).val ∧ (i 0).val < win0_2.index t 0 * 1 + 1; omega
  | ⟨1, _⟩ => show win0_2.index t 1 * 32 ≤ (i 1).val ∧ (i 1).val < win0_2.index t 1 * 32 + 32; omega
  | ⟨2, _⟩ => show win0_2.index t 2 * 36 ≤ (i 2).val ∧ (i 2).val < win0_2.index t 2 * 36 + 36; omega
  | ⟨3, _⟩ => show win0_2.index t 3 * 32 ≤ (i 3).val ∧ (i 3).val < win0_2.index t 3 * 32 + 32; omega
  | ⟨4, _⟩ => show win0_2.index t 4 * 32 ≤ (i 4).val ∧ (i 4).val < win0_2.index t 4 * 32 + 32; omega

/-- After the run the result array is the pooled array. -/
theorem final (c : Dev nD) : (dats m 0 c).arrAt 2 cfg0.N = pool (inputArr m c) (masksArr m c) :=
  (dats m 0 c).arrAt_eq_of_cover 2 (pool (inputArr m c) (masksArr m c)) (fun t _ => flushed_eq m c t) covered

/-- The kernel's run, read: the result array ends at the pooled array, the arguments unchanged. -/
theorem run : θ_run defs (onTc (τ := τ) (main (F := Ideal))) ⟨m, fun _ => 0, ρ⟩ fun r => ∀ c : Dev nD,
      r.2.mem ((c : Thread nD τ).loc main_v0) = pool (inputArr m c) (masksArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Pool.KernelValue

end
-- ==== Proof.LibRank7.lean ====
/-
  Indices of rank 7 by their coordinates.

  An index into an array of seven axes is a tuple of seven coordinates, and its row-major position
  is the usual nested sum: each coordinate weighs the product of the extents of the axes after it.
  This is what lets linear arithmetic compare a rank-7 position with a position at another rank,
  as a reshape asks.
-/
import Idealize.ShloMosaic.Lib.ValueIdx

namespace Cert.Lib.Rank7

open Idealize.ShloMosaic

/-- The row-major position of a rank-7 index as one nested sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5
          + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- A rank-7 index from its seven coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun h => match h with
    | ⟨0, _⟩ => a | ⟨1, _⟩ => b | ⟨2, _⟩ => c | ⟨3, _⟩ => d | ⟨4, _⟩ => e | ⟨5, _⟩ => f | ⟨6, _⟩ => g

/-- Every rank-7 index is the tuple of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl

end Cert.Lib.Rank7
-- ==== Proof.RefIsPool.lean ====
/-
  The reference computes the pooled array.

  The reference multiplies the input, broadcast over the 36 masks, with the masks, broadcast over
  batch and channel; views the [8, 32, 36, 64, 64] product as [8, 32, 36, 32, 2, 32, 2]; and sums
  over the two axes of extent 2, starting from zero.  The indices that reduce to (b, c, k, i, j)
  are exactly the four (b, c, k, i, dh, j, dw), and a reshape keeps the row-major position, so
  entry (b, c, k, i, dh, j, dw) of the view is entry (b, c, k, 2i + dh, 2j + dw) of the product.
  Hence the result at (b, c, k, i, j) is the 2x2 sum of input[b, c, h, w] * mask[k, h, w].
-/
import proofs.«173572_j35089882808587_1_alg».proof.Proof.Gen.ReferenceIdeal.Read
import proofs.«173572_j35089882808587_1_alg».proof.Proof.PoolSpec
import proofs.«173572_j35089882808587_1_alg».proof.Proof.LibRank7
import Idealize.ShloMosaic.PureOps.Ideal.Laws
import Idealize.ShloMosaic.Lib.ValueIdx
import Idealize.ShloMosaic.Lib.Pipeline.Value

noncomputable section

namespace Cert.Pool.Ref

open Idealize.ShloMosaic Idealize.ShloMosaic.ValueIdx Cert.Lib.Rank7
open Cert.Pool Cert.ReferenceIdeal Cert.ReferenceIdeal.Gen Cert.ReferenceIdeal.Read

/-- Dropping the two short axes of (b, c, k, i, dh, j, dw) leaves (b, c, k, i, j). -/
theorem drop_ix7 (h : S8x32x36x32x2x32x2.ReducesTo [4, 6] S8x32x36x32x32) (b : Fin 8) (c : Fin 32) (k : Fin 36)
    (i : Fin 32) (dh : Fin 2) (j : Fin 32) (dw : Fin 2) :
    h.drop (ix7 b c k i dh j dw) = ix5 b c k i j := by
  funext a
  apply Fin.ext
  match a with
  | ⟨0, _⟩ => exact h.drop_apply_val_of_eq (ix7 b c k i dh j dw) 0 0
  | ⟨1, _⟩ => exact h.drop_apply_val_of_eq (ix7 b c k i dh j dw) 1 1
  | ⟨2, _⟩ => exact h.drop_apply_val_of_eq (ix7 b c k i dh j dw) 2 2
  | ⟨3, _⟩ => exact h.drop_apply_val_of_eq (ix7 b c k i dh j dw) 3 3
  | ⟨4, _⟩ => exact h.drop_apply_val_of_eq (ix7 b c k i dh j dw) 4 5

/-- An index that drops to (b, c, k, i, j) is (b, c, k, i, dh, j, dw) for its own two short coordinates. -/
theorem lift_of_drop (h : S8x32x36x32x2x32x2.ReducesTo [4, 6] S8x32x36x32x32) (b : Fin 8) (c : Fin 32) (k : Fin 36)
    (i j : Fin 32) (y : S8x32x36x32x2x32x2.Idx) (hy : h.drop y = ix5 b c k i j) :
    ix7 b c k i (y 4) j (y 6) = y := by
  have e0 : (y 0).val = b.val := (h.drop_apply_val_of_eq y 0 0).symm.trans (congrArg (fun z : S8x32x36x32x32.Idx => (z 0).val) hy)
  have e1 : (y 1).val = c.val := (h.drop_apply_val_of_eq y 1 1).symm.trans (congrArg (fun z : S8x32x36x32x32.Idx => (z 1).val) hy)
  have e2 : (y 2).val = k.val := (h.drop_apply_val_of_eq y 2 2).symm.trans (congrArg (fun z : S8x32x36x32x32.Idx => (z 2).val) hy)
  have e3 : (y 3).val = i.val := (h.drop_apply_val_of_eq y 3 3).symm.trans (congrArg (fun z : S8x32x36x32x32.Idx => (z 3).val) hy)
  have e5 : (y 5).val = j.val := (h.drop_apply_val_of_eq y 4 5).symm.trans (congrArg (fun z : S8x32x36x32x32.Idx => (z 4).val) hy)
  funext a
  apply Fin.ext
  match a with
  | ⟨0, _⟩ => exact e0.symm
  | ⟨1, _⟩ => exact e1.symm
  | ⟨2, _⟩ => exact e2.symm
  | ⟨3, _⟩ => exact e3.symm
  | ⟨4, _⟩ => rfl
  | ⟨5, _⟩ => exact e5.symm
  | ⟨6, _⟩ => rfl

/-- The sum over the indices that drop to (b, c, k, i, j) is the double sum over the two short coordinates. -/
theorem sum_drop_pairs {M : Type} [AddCommMonoid M] (h : S8x32x36x32x2x32x2.ReducesTo [4, 6] S8x32x36x32x32)
    (x : S8x32x36x32x2x32x2.Idx → M) (b : Fin 8) (c : Fin 32) (k : Fin 36) (i j : Fin 32) :
    ∑ y ∈ Finset.univ.filter (fun y => h.drop y = ix5 b c k i j), x y
      = ∑ dh : Fin 2, ∑ dw : Fin 2, x (ix7 b c k i dh j dw) := by
  refine Eq.trans ?_ (Fintype.sum_prod_type (fun p : Fin 2 × Fin 2 => x (ix7 b c k i p.1 j p.2)))
  refine Finset.sum_nbij' (fun y => ((y 4 : Fin 2), (y 6 : Fin 2))) (fun p => ix7 b c k i p.1 j p.2) ?_ ?_ ?_ ?_ ?_
  · intro y _; exact Finset.mem_univ _
  · intro p _; exact Finset.mem_filter.2 ⟨Finset.mem_univ _, drop_ix7 h b c k i p.1 j p.2⟩
  · intro y hy; exact lift_of_drop h b c k i j y (Finset.mem_filter.1 hy).2
  · intro p _; rfl
  · intro y hy; exact congrArg x (lift_of_drop h b c k i j y (Finset.mem_filter.1 hy).2).symm

/-- The product viewed with the rows and columns paired: entry (b, c, k, i, dh, j, dw) is entry
    (b, c, k, 2i + dh, 2j + dw). -/
theorem pair_view {α : Type} (x : S8x32x36x64x64.Idx → α)
    (h : S8x32x36x64x64.ShapeCasts S8x32x36x32x2x32x2) (b : Fin 8) (c : Fin 32) (k : Fin 36) (i : Fin 32)
    (dh : Fin 2) (j : Fin 32) (dw : Fin 2) :
    shapeCast S8x32x36x32x2x32x2 x h (ix7 b c k i dh j dw) = x (ix5 b c k (sub i dh) (sub j dw)) :=
  shapeCast_apply x h _ _ (by
    rw [Shape.rowMajor_val_five, rowMajor_val_seven]
    show (((b.val * 32 + c.val) * 36 + k.val) * 64 + (2 * i.val + dh.val)) * 64 + (2 * j.val + dw.val)
      = (((((b.val * 32 + c.val) * 36 + k.val) * 32 + i.val) * 2 + dh.val) * 32 + j.val) * 2 + dw.val
    omega)

/-- The input broadcast over the masks, at (b, c, k, p, q), is input[b, c, p, q]. -/
theorem idx_input (b : Fin 8) (c : Fin 32) (k : Fin 36) (p q : Fin 64) :
    idx_main_v0 (idx_main_v2 (ix5 b c k p q)) = ix4 b c p q := by
  funext a
  match a with
  | ⟨0, _⟩ => rfl
  | ⟨1, _⟩ => rfl
  | ⟨2, _⟩ => rfl
  | ⟨3, _⟩ => rfl

/-- The masks broadcast over batch and channel, at (b, c, k, p, q), are mask[k, p, q]. -/
theorem idx_masks (b : Fin 8) (c : Fin 32) (k : Fin 36) (p q : Fin 64) :
    idx_main_v1 (idx_main_v3 (ix5 b c k p q)) = ix3 k p q := by
  funext a
  match a with
  | ⟨0, _⟩ => rfl
  | ⟨1, _⟩ => rfl
  | ⟨2, _⟩ => rfl

/-- The reference's result is the pooled array. -/
theorem ref_is_pool (x0 : (⟨S8x32x64x64, .f32⟩ : BufTy).Contents (Elt Ideal))
    (x1 : (⟨S36x64x64, .f32⟩ : BufTy).Contents (Elt Ideal)) :
    val_main_v6 (F := Ideal) x0 x1 = pool x0 x1 := by
  funext y
  obtain ⟨b, c, k, i, j, rfl⟩ : ∃ (b : Fin 8) (c : Fin 32) (k : Fin 36) (i j : Fin 32), y = ix5 b c k i j :=
    ⟨y 0, y 1, y 2, y 3, y 4, eq_ix5 y⟩
  rw [pool_ix5]
  unfold val_main_v6 Host.reduceAdd
  rw [Ideal.hostReduceAdd_def]
  unfold Ideal.hostReduceAdd
  rw [sum_drop_pairs, val_main_cst_apply]
  refine (congrArg (· + _) Ideal.ofBits_zero_f32).trans ?_
  rw [zero_add]
  unfold poolAt
  refine Finset.sum_congr rfl fun dh _ => Finset.sum_congr rfl fun dw _ => ?_
  unfold val_main_v5
  rw [pair_view, val_main_v4_apply, val_main_v2_apply, val_main_v0_apply, val_main_v3_apply, val_main_v1_apply,
    idx_input, idx_masks]
  rfl

end Cert.Pool.Ref

end
-- ==== Proof.lean ====
/-
  Masked 2x2 sum-pooling: the kernel and its reference compute the same array over the extended reals.

  Both programs take an input u : [8, 32, 64, 64] and masks rf : [36, 64, 64] and return
  out : [8, 32, 36, 32, 32] with

      out[b, c, k, i, j] = sum over dh, dw in {0, 1} of  u[b, c, 2i + dh, 2j + dw] * rf[k, 2i + dh, 2j + dw].

  The reference forms the whole [8, 32, 36, 64, 64] product, views it as [8, 32, 36, 32, 2, 32, 2] and
  sums the two short axes at once, from zero.  The kernel runs one grid point per batch entry; at a
  point it loops over the 36 masks, and for each forms the [32, 64, 64] product, sums the pairs of rows,
  then the pairs of columns, each from zero, and stores the [32, 32, 32] result into that mask's slot
  of the output block.  The two results differ only in the order in which four terms are added and in
  where a zero is added; addition of extended reals is commutative and associative and zero is its
  unit, infinities included, so the results are equal with no use of the inputs' finiteness.

  The pieces: the pooled array and its batch slice as functions (PoolSpec); the body's reshapes and
  short sums read at one entry (LayoutAt), and with them one trip's stored slab at an entry
  (KernelPayload); each trip's store as a slab of the pooled slice (KernelPieces); all 36 stores, by
  induction over the trips, and so the block (KernelBlock); the 8 blocks as the batch slices of the
  pooled array, and the run (KernelValue); the reference's reshape and two-axis sum read at an entry
  (RefIsPool, with rank-7 indices from LibRank7).  The three frames are the generated ones (the
  reference's is its generated run with the result dropped); the kernel was idealized by reading its
  own text at the ideal values, so there is nothing to preserve.
-/
import proofs.«173572_j35089882808587_1_alg».proof.Defs
import proofs.«173572_j35089882808587_1_alg».proof.Proof.Gen.Kernel
import proofs.«173572_j35089882808587_1_alg».proof.Proof.Gen.Kernel.Frame
import proofs.«173572_j35089882808587_1_alg».proof.Proof.Gen.KernelIdeal
import proofs.«173572_j35089882808587_1_alg».proof.Proof.Gen.KernelIdeal.Frame
import proofs.«173572_j35089882808587_1_alg».proof.Proof.Gen.KernelIdeal.Value
import proofs.«173572_j35089882808587_1_alg».proof.Proof.Gen.ReferenceIdeal
import proofs.«173572_j35089882808587_1_alg».proof.Proof.Gen.ReferenceIdeal.Run
import proofs.«173572_j35089882808587_1_alg».proof.Proof.Gen.ReferenceIdeal.Read
import proofs.«173572_j35089882808587_1_alg».proof.Proof.Gen.Pre_finite_inputs
import proofs.«173572_j35089882808587_1_alg».proof.Proof.KernelValue
import proofs.«173572_j35089882808587_1_alg».proof.Proof.RefIsPool
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- So does the reference: its run, with what it says about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal values: no operation was rewritten. -/
theorem preserves : Cert.preserves_Kernel_KernelIdeal := trivial

/-- From memories that agree on the arguments, both programs end with the pooled array of those
    arguments in their result: the kernel block by block, the reference in one sum. -/
theorem algebraic : Cert.algebraic_KernelIdeal_ReferenceIdeal := by
  intro m ρ m' ρ' _ hagree
  refine ⟨fun c => Cert.Pool.pool (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Pool.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Pool.Ref.ref_is_pool, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
